-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S100000x128 .f32) (main_arg1 : FVec F S1600000 .f32) (main_arg2 : FVec F S128x32 .f32) (main_arg3 : FVec F S32 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S20000x128 : Shape := ⟨2, ![20000, 128]⟩
abbrev S20000x32 : Shape := ⟨2, ![20000, 32]⟩
abbrev S100000x1 : Shape := ⟨2, ![100000, 1]⟩
abbrev S1600000x32 : Shape := ⟨2, ![1600000, 32]⟩
abbrev S1x32 : Shape := ⟨2, ![1, 32]⟩

abbrev nBuf : Space → Nat
  | .hbm => 51
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x32, .f32⟩
  | .hbm, ⟨3, _⟩ => ⟨S32, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x32, .f32⟩
  | .hbm, ⟨23, _⟩ => ⟨S100000, .f32⟩
  | .hbm, ⟨24, _⟩ => ⟨S100000x1, .f32⟩
  | .hbm, ⟨25, _⟩ => ⟨S100000x32, .f32⟩
  | .hbm, ⟨26, _⟩ => ⟨S100000x32, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x32, .f32⟩
  | .hbm, ⟨36, _⟩ => ⟨S1600000x1, .f32⟩
  | .hbm, ⟨37, _⟩ => ⟨S1600000x32, .f32⟩
  | .hbm, ⟨38, _⟩ => ⟨S1600000x32, .f32⟩
  | .hbm, ⟨39, _⟩ => ⟨S_, .f32⟩
  | .hbm, ⟨40, _⟩ => ⟨S100000x32, .f32⟩
  | .hbm, ⟨41, _⟩ => ⟨S1600000x1, .i32⟩
  | .hbm, ⟨42, _⟩ => ⟨S100000x32, .f32⟩
  | .hbm, ⟨43, _⟩ => ⟨S100000x32, .f32⟩
  | .hbm, ⟨44, _⟩ => ⟨S100000, .f32⟩
  | .hbm, ⟨45, _⟩ => ⟨S100000x1, .f32⟩
  | .hbm, ⟨46, _⟩ => ⟨S100000x32, .f32⟩
  | .hbm, ⟨47, _⟩ => ⟨S100000x32, .f32⟩
  | .hbm, ⟨48, _⟩ => ⟨S1x32, .f32⟩
  | .hbm, ⟨49, _⟩ => ⟨S100000x32, .f32⟩
  | .hbm, ⟨50, _⟩ => ⟨S100000x32, .f32⟩
  | .local _ .vmem, ⟨0, _⟩ => ⟨S20000x128, .f32⟩
  | .local _ .vmem, ⟨1, _⟩ => ⟨S20000x128, .f32⟩
  | .local _ .vmem, ⟨2, _⟩ => ⟨S128x32, .f32⟩
  | .local _ .vmem, ⟨3, _⟩ => ⟨S20000x32, .f32⟩
  | .local _ .vmem, ⟨4, _⟩ => ⟨S20000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S20000x128_S20000x128_0_0 : ∀ a, (![0, 0] : Fin 2 → Nat) a + S20000x128.size a ≤ S20000x128.size a
  h_S20000x128 : 0 < S20000x128.numel
  inb_S128x32_S128x32_0_0 : ∀ a, (![0, 0] : Fin 2 → Nat) a + S128x32.size a ≤ S128x32.size a
  h_S128x32 : 0 < S128x32.numel
  inb_S20000x32_S20000x32_0_0 : ∀ a, (![0, 0] : Fin 2 → Nat) a + S20000x32.size a ≤ S20000x32.size a
  h_S20000x32 : 0 < S20000x32.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S20000x128_S128x32_S20000x32_1_0_0_1_n_n_wf : DotDims.WF S20000x128 S128x32 S20000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x32.size a ≤ S100000x32.size a
  hwx0_2 : ∀ i : grid0.Coords, EltTy.bits .f32 = 32 ∨ (Rect.block (s := S100000x32) S20000x32.size (cc0_transform_2 i) (hinb0_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S20000x128_S128x32_S20000x32_1_0_0_1_n_n : DotDims S20000x128 S128x32 S20000x32 where
  lhsContracting := [1]
  rhsContracting := [0]
  lhsNonContracting := [0]
  rhsNonContracting := [1]
  lhsBatch := []
  rhsBatch := []
  wf := dot_S20000x128_S128x32_S20000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S20000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x32 : Shape := ⟨2, ![128, 32]⟩
abbrev S32 : Shape := ⟨1, ![32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x32, .f32⟩
  | .hbm, ⟨3, _⟩ => ⟨S32, .f32⟩
  | .hbm, ⟨4, _⟩ => ⟨S1600000, .i32⟩
  | .hbm, ⟨5, _⟩ => ⟨S1600000, .i32⟩
  | .hbm, ⟨6, _⟩ => ⟨S100000, .i32⟩
  | .hbm, ⟨7, _⟩ => ⟨S1700000, .i32⟩
  | .hbm, ⟨8, _⟩ => ⟨S1700000, .i32⟩
  | .hbm, ⟨9, _⟩ => ⟨S_, .f32⟩
  | .hbm, ⟨10, _⟩ => ⟨S100000, .f32⟩
  | .hbm, ⟨11, _⟩ => ⟨S1700000, .f32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x32, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x32, .f32⟩
  | .hbm, ⟨44, _⟩ => ⟨S1700000x1, .f32⟩
  | .hbm, ⟨45, _⟩ => ⟨S1700000x32, .f32⟩
  | .hbm, ⟨46, _⟩ => ⟨S1700000x32, .f32⟩
  | .hbm, ⟨47, _⟩ => ⟨S_, .f32⟩
  | .hbm, ⟨48, _⟩ => ⟨S100000x32, .f32⟩
  | .hbm, ⟨49, _⟩ => ⟨S1700000x1, .i32⟩
  | .hbm, ⟨50, _⟩ => ⟨S100000x32, .f32⟩
  | .hbm, ⟨51, _⟩ => ⟨S100000, .f32⟩
  | .hbm, ⟨52, _⟩ => ⟨S100000x1, .f32⟩
  | .hbm, ⟨53, _⟩ => ⟨S100000x32, .f32⟩
  | .hbm, ⟨54, _⟩ => ⟨S100000x32, .f32⟩
  | .hbm, ⟨55, _⟩ => ⟨S1x32, .f32⟩
  | .hbm, ⟨56, _⟩ => ⟨S100000x32, .f32⟩
  | .hbm, ⟨57, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KerStages.lean ====
/-
  The host side of the kernel program, as functions of the argument arrays.

  Around its one launched region the program computes, over N = 100000 nodes and E = 1600000 edges with endpoints
  `src`, `dst` and weights `w`:
    deg e n      = (the number of edges whose endpoint `e` is the node n) + 1        (a scatter-add of ones, plus one)
    scaled p d   = p n f · rsqrt (d n)                                               (a row scale)
    msg h e f    = h (src e) f · w e                                                 (a gather and an edge scale)
    agg h n f    = (the sum of msg h e f over the edges with dst e = n) + h n f      (a scatter-add, plus the self term)
    out          = scaled (agg (scaled p (deg src))) (deg dst) + b
  where `p` is the region's result, the product of the features with the weight matrix. Each definition below is the
  program's own operations composed, in program order; nothing is computed here.
-/
import proofs.«135186_j21182778704610_2_alg».proof.KernelIdeal
import proofs.«135186_j21182778704610_2_alg».proof.Proof.Gen.KernelIdeal
import Idealize.ShloMosaic.Lib.ValueIdx

noncomputable section

namespace Cert.KernelIdeal.Stage

open Cert.KernelIdeal Cert.KernelIdeal.Facts₀ Idealize.ShloMosaic Idealize.ShloMosaic.TcCoe Idealize.ShloMosaic.ValueIdx

variable {F : FTy → Type} [FloatOps F]

/-- The constant one over the edges: every edge counts once in a degree. -/
def onesE : (⟨S1600000, .f32⟩ : BufTy).Contents (Elt F) :=
  broadcastInDim S1600000 ![] bcast_S_S1600000 (constant S_ .f32 0x3F800000#32)

/-- The constant zero over the nodes: a degree count starts from nothing. -/
def zerosN : (⟨S100000, .f32⟩ : BufTy).Contents (Elt F) :=
  broadcastInDim S100000 ![] bcast_S_S100000 (constant S_ .f32 0x00000000#32)

/-- The constant one over the nodes: each node's own loop. -/
def onesN : (⟨S100000, .f32⟩ : BufTy).Contents (Elt F) :=
  broadcastInDim S100000 ![] bcast_S_S100000 (constant S_ .f32 0x3F800000#32)

/-- A node's degree with respect to one endpoint array: the edges ending there, counted by a scatter-add of ones,
    plus one for the node's own loop. -/
def deg (e : (⟨S1600000, .i32⟩ : BufTy).Contents (Elt F)) : (⟨S100000, .f32⟩ : BufTy).Contents (Elt F) :=
  addf (Host.scatterAdd scatter_S100000_S1600000x1_S1600000_n_0_0_1 (zerosN (F := F))
    (broadcastInDim S1600000x1 ![0] bcast_S1600000_S1600000x1_0 e) (onesE (F := F))) (onesN (F := F))

/-- The reciprocal square root of a per-node quantity, repeated along the 32 output features. -/
def rowScale (d : (⟨S100000, .f32⟩ : BufTy).Contents (Elt F)) : (⟨S100000x32, .f32⟩ : BufTy).Contents (Elt F) :=
  broadcastInDim S100000x32 ![0, 1] bcast_S100000x1_S100000x32_0_1
    (broadcastInDim S100000x1 ![0] bcast_S100000_S100000x1_0 (Host.rsqrt d))

/-- The projected features, each node's row scaled by the reciprocal square root of its out-degree. -/
def hid (p : (⟨S100000x32, .f32⟩ : BufTy).Contents (Elt F)) (src : (⟨S1600000, .i32⟩ : BufTy).Contents (Elt F)) :
    (⟨S100000x32, .f32⟩ : BufTy).Contents (Elt F) :=
  mulf p (rowScale (deg src))

/-- An endpoint array with negative entries moved up by the number of nodes (indexing from the end). -/
def wrap (e : (⟨S1600000, .i32⟩ : BufTy).Contents (Elt F)) : (⟨S1600000, .i32⟩ : BufTy).Contents (Elt F) :=
  select (cmpi .slt e (broadcastInDim S1600000 ![] bcast_S_S1600000 (constantI S_ 32 0#32)))
    (addi e (broadcastInDim S1600000 ![] bcast_S_S1600000 (constantI S_ 32 100000#32))) e

/-- The message along each edge: the source node's row, times the edge's weight. -/
def msg (h : (⟨S100000x32, .f32⟩ : BufTy).Contents (Elt F)) (w : (⟨S1600000, .f32⟩ : BufTy).Contents (Elt F))
    (src : (⟨S1600000, .i32⟩ : BufTy).Contents (Elt F)) : (⟨S1600000x32, .f32⟩ : BufTy).Contents (Elt F) :=
  mulf (Host.gather gather_S100000x32_S1600000x1_S1600000x32_1_0_n_n_0_1_132 h
      (broadcastInDim S1600000x1 ![0] bcast_S1600000_S1600000x1_0 (wrap src)))
    (broadcastInDim S1600000x32 ![0, 1] bcast_S1600000x1_S1600000x32_0_1
      (broadcastInDim S1600000x1 ![0] bcast_S1600000_S1600000x1_0 w))

/-- The aggregate at each node: the messages of the edges arriving there, summed by a scatter-add, plus the node's
    own row (its loop, of weight one). -/
def agg (h : (⟨S100000x32, .f32⟩ : BufTy).Contents (Elt F)) (w : (⟨S1600000, .f32⟩ : BufTy).Contents (Elt F))
    (src dst : (⟨S1600000, .i32⟩ : BufTy).Contents (Elt F)) : (⟨S100000x32, .f32⟩ : BufTy).Contents (Elt F) :=
  addf (Host.scatterAdd scatter_S100000x32_S1600000x1_S1600000x32_1_0_0_1
      (broadcastInDim S100000x32 ![] bcast_S_S100000x32 (constant S_ .f32 0x00000000#32))
      (broadcastInDim S1600000x1 ![0] bcast_S1600000_S1600000x1_0 dst) (msg h w src)) h

/-- The last two steps: scale each node's row by the reciprocal square root of its in-degree, add the bias. -/
def fin (r : (⟨S100000x32, .f32⟩ : BufTy).Contents (Elt F)) (d : (⟨S100000, .f32⟩ : BufTy).Contents (Elt F))
    (b : (⟨S32, .f32⟩ : BufTy).Contents (Elt F)) : (⟨S100000x32, .f32⟩ : BufTy).Contents (Elt F) :=
  addf (mulf r (rowScale d))
    (broadcastInDim S100000x32 ![0, 1] bcast_S1x32_S100000x32_0_1 (broadcastInDim S1x32 ![1] bcast_S32_S1x32_1 b))

/-- The program's result from the region's result `p` and the other five arguments. -/
def out (p : (⟨S100000x32, .f32⟩ : BufTy).Contents (Elt F)) (w : (⟨S1600000, .f32⟩ : BufTy).Contents (Elt F))
    (b : (⟨S32, .f32⟩ : BufTy).Contents (Elt F)) (src dst : (⟨S1600000, .i32⟩ : BufTy).Contents (Elt F)) :
    (⟨S100000x32, .f32⟩ : BufTy).Contents (Elt F) :=
  fin (agg (hid p src) w src dst) (deg dst) b

/-- The region's result as one function of the features and the weight matrix: entry (n, f) is the sum over the 128
    input features k of feature (n, k) times weight (k, f). -/
def proj (x : (⟨S100000x128, .f32⟩ : BufTy).Contents (Elt Ideal)) (W : (⟨S128x32, .f32⟩ : BufTy).Contents (Elt Ideal)) :
    (⟨S100000x32, .f32⟩ : BufTy).Contents (Elt Ideal) :=
  fun i => ∑ k : Fin 128, x (ix2 (i 0) k) * W (ix2 k (i 1))

end Cert.KernelIdeal.Stage

end
-- ==== Proof.KerRun.lean ====
/-
  The kernel program's run at exact arithmetic, with its result named.

  The program's one launched region multiplies the features X (100000 × 128) by the weight matrix W (128 × 32) in five
  blocks of 20000 rows: grid point t reads rows 20000·t … 20000·t + 19999 of X and the whole of W, forms their product
  into a zero accumulator, and writes it back as the same rows of the output. Hence
    * entry (p, q) of one block's product is the sum over k < 128 of block (p, k) · W (k, q)      (`pay_apply`);
    * that is entry (20000·t + p, q) of the whole product of X and W                              (`blk_proj`, `flushed_eq`);
    * the five blocks cover every row — row r lies in block r / 20000 — so after the region the output array is
      `Stage.proj X W`, entry (n, f) = the sum over k < 128 of X (n, k) · W (k, f)                 (`cover`, `final`);
    * the host operations after the region read that array, the two degree vectors computed before the region
      (`Stage.deg` of the two endpoint arrays) and four of the arguments, and compose to `Stage.out` (`tail_eq`);
    * no operation writes an argument array                                                        (`run`).
  The sums are taken over k in the same order on both sides; the only law of arithmetic used is 0 + x = x, for the
  zero accumulator.
-/
import proofs.«135186_j21182778704610_2_alg».proof.Proof.Gen.KernelIdeal.Frame
import proofs.«135186_j21182778704610_2_alg».proof.Proof.KerStages
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.KerRun

open Cert.KernelIdeal Cert.KernelIdeal.Gen Cert.KernelIdeal.Facts₀ Idealize.ShloMosaic Idealize.ShloMosaic.TcCoe
open Idealize.SL.Sem Idealize.ShloMosaic.ValueIdx Idealize.ShloMosaic.StableHlo
open Idealize.ShloMosaic.Pipeline (Dat)

/-! ## One block's product at an index -/

theorem lhs_row (i : S20000x32.Idx) (q : (dot_S20000x128_S128x32_S20000x32_1_0_0_1_n_n).contr.Idx) :
    ((dot_S20000x128_S128x32_S20000x32_1_0_0_1_n_n).lhsIdx i q 0).val = (i 0).val := by
  unfold DotDims.lhsIdx
  rw [dif_neg (show ¬(0 : Fin S20000x128.rank) ∈ (dot_S20000x128_S128x32_S20000x32_1_0_0_1_n_n).lhsBatch by decide),
    dif_pos (show (0 : Fin S20000x128.rank) ∈ (dot_S20000x128_S128x32_S20000x32_1_0_0_1_n_n).lhsNonContracting by decide)]
  rfl

theorem rhs_col (i : S20000x32.Idx) (q : (dot_S20000x128_S128x32_S20000x32_1_0_0_1_n_n).contr.Idx) :
    ((dot_S20000x128_S128x32_S20000x32_1_0_0_1_n_n).rhsIdx i q 1).val = (i 1).val := by
  unfold DotDims.rhsIdx
  rw [dif_neg (show ¬(1 : Fin S128x32.rank) ∈ (dot_S20000x128_S128x32_S20000x32_1_0_0_1_n_n).rhsBatch by decide),
    dif_pos (show (1 : Fin S128x32.rank) ∈ (dot_S20000x128_S128x32_S20000x32_1_0_0_1_n_n).rhsNonContracting by decide)]
  rfl

/-- Entry (p, q) of a block's product is the sum over the 128 contracted positions k of the left block at (p, k)
    times the right block at (k, q): the accumulator is the zero word, so nothing is added to the sum. -/
theorem pay_apply (x0 : Vec Ideal S20000x128 .f32) (x1 : Vec Ideal S128x32 .f32) (p : Fin 20000) (q : Fin 32) :
    k0_pay1 (F := Ideal) x0 x1 (ix2 p q) = ∑ k : Fin 128, x0 (ix2 p k) * x1 (ix2 k q) := by
  unfold k0_pay1
  show FloatOps.matmul (dot_S20000x128_S128x32_S20000x32_1_0_0_1_n_n) (some .fp32) x0 x1 (constant (F := Ideal) S20000x32 .f32 0x00000000#32) (ix2 p q) = _
  rw [Ideal.matmul_constant_zero_apply,
    ← Equiv.sum_comp (contrEquiv1 (dot_S20000x128_S128x32_S20000x32_1_0_0_1_n_n) 128 rfl rfl).symm]
  refine Finset.sum_congr rfl fun k _ => ?_
  have hk := contrEquiv1_symm_val (dot_S20000x128_S128x32_S20000x32_1_0_0_1_n_n) 128 rfl rfl k
  have el : (dot_S20000x128_S128x32_S20000x32_1_0_0_1_n_n).lhsIdx (ix2 p q)
      ((contrEquiv1 (dot_S20000x128_S128x32_S20000x32_1_0_0_1_n_n) 128 rfl rfl).symm k) = ix2 p k := funext fun a => Fin.ext (by
    match a with
    | ⟨0, _⟩ => exact lhs_row _ _
    | ⟨1, _⟩ => exact ((dot_S20000x128_S128x32_S20000x32_1_0_0_1_n_n).lhsIdx_val_of_single rfl _ _).trans hk)
  have er : (dot_S20000x128_S128x32_S20000x32_1_0_0_1_n_n).rhsIdx (ix2 p q)
      ((contrEquiv1 (dot_S20000x128_S128x32_S20000x32_1_0_0_1_n_n) 128 rfl rfl).symm k) = ix2 k q := funext fun a => Fin.ext (by
    match a with
    | ⟨0, _⟩ => exact ((dot_S20000x128_S128x32_S20000x32_1_0_0_1_n_n).rhsIdx_val_of_single rfl _ _).trans hk
    | ⟨1, _⟩ => exact rhs_col _ _)
  rw [el, er]

/-! ## What one grid point writes back -/

theorem hz : (![0, 0] : Fin 2 → Nat) = fun _ => 0 := funext fun a => by fin_cases a <;> rfl

/-- The printed index maps over the five grid points: the feature window and the output window sit at row block t,
    column block 0; the weight window is always the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of rows of the product: if row (j 0) of the left block is row (i 0) of the features and column (j 1) of
    the right block is column (i 1) of the weights, the block's product at j is the whole product at i. -/
theorem blk_proj (X : (⟨S100000x128, .f32⟩ : BufTy).Contents (Elt Ideal)) (W : (⟨S128x32, .f32⟩ : BufTy).Contents (Elt Ideal))
    (x0 : Vec Ideal S20000x128 .f32) (x1 : Vec Ideal S128x32 .f32)
    (j : S20000x32.Idx) (i : S100000x32.Idx)
    (h0 : ∀ k : Fin 128, x0 (ix2 (j 0) k) = X (ix2 (i 0) k)) (h1 : ∀ k : Fin 128, x1 (ix2 k (j 1)) = W (ix2 k (i 1))) :
    k0_pay1 (F := Ideal) x0 x1 j = Stage.proj X W i := by
  obtain ⟨p, q, rfl⟩ : ∃ (p : Fin 20000) (q : Fin 32), j = ix2 p q := ⟨j 0, j 1, eq_ix2 j⟩
  rw [pay_apply]
  unfold Stage.proj
  exact Finset.sum_congr rfl fun k _ => congrArg₂ (· * ·) (h0 k) (h1 k)

variable (m : (ℓ : Loc nD τ sig) → Buf (Elt Ideal) ℓ) (ρ : Dev nD → PrngReg)

/-- What grid point t writes back is rows t·20000 … t·20000 + 19999 of the product of the features with the weights. -/
theorem flushed_eq (c : Dev nD) (t : Fin cfg0.N) :
    (dats m 0 c).flushed 2 t
      = ((cfg0.win 2).blk t).view.read (Elt Ideal) (Stage.proj (V m c main_arg0) (V m c main_arg2)) := by
  show (cfg0.win 2).cut (grid0.coords t) ((dats m 0 c).after 2 t) = _
  rw [after0_2]
  unfold out0_2
  rw [View.canon_unit_zero hz]
  simp only [View.ld_unit_zero (S := S20000x128) hz, View.ld_unit_zero (S := S128x32) hz]
  obtain ⟨e0, e1, e2, e3, e4, e5⟩ := idx_facts t
  funext j
  show k0_pay1 (F := Ideal) (iblk m c 0 t) (iblk m c 1 t) j
    = Stage.proj (V m c main_arg0) (V m c main_arg2) (((cfg0.win 2).blk t).view.emb j)
  refine blk_proj _ _ _ _ j _ (fun k => ?_) (fun k => ?_)
  · show V m c main_arg0 (((cfg0.win 0).blk t).view.emb (ix2 (j 0) k)) = _
    refine congrArg (V m c main_arg0) (funext fun a => Fin.ext ?_)
    match a with
    | ⟨0, _⟩ =>
      show win0_0.index t (0 : Fin 2) * 20000 + 1 * (j 0).val = win0_2.index t (0 : Fin 2) * 20000 + 1 * (j 0).val
      omega
    | ⟨1, _⟩ =>
      show win0_0.index t (1 : Fin 2) * 128 + 1 * k.val = k.val
      omega
  · show V m c main_arg2 (((cfg0.win 1).blk t).view.emb (ix2 k (j 1))) = _
    refine congrArg (V m c main_arg2) (funext fun a => Fin.ext ?_)
    match a with
    | ⟨0, _⟩ =>
      show win0_1.index t (0 : Fin 2) * 128 + 1 * k.val = k.val
      omega
    | ⟨1, _⟩ =>
      show win0_1.index t (1 : Fin 2) * 32 + 1 * (j 1).val = win0_2.index t (1 : Fin 2) * 32 + 1 * (j 1).val
      omega

/-! ## From the five blocks to the whole array -/

/-- An index of the output array is in point t's block iff each coordinate is in the block's range on its axis. -/
theorem mem_blk (t : Fin cfg0.N) (i : S100000x32.Idx) :
    i ∈ ((cfg0.win 2).blk t).view.set ↔ ∀ a : Fin 2, win0_2.index t a * S20000x32.size a ≤ (i a).val
      ∧ (i a).val < win0_2.index t a * S20000x32.size a + S20000x32.size a := by
  show i ∈ ((View.whole main_v11).slice (win0_2.rect t)).set ↔ _
  rw [View.set_slice_whole, Rect.mem_set_unit]
  exact Iff.rfl

/-- Row r of the output lies in the block of grid point r / 20000, and every point writes its block back. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 5 := N_0
  obtain ⟨t, ht⟩ : ∃ t : Fin cfg0.N, t.val = (i 0).val / 20000 := ⟨⟨(i 0).val / 20000, by rw [hN]; omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 20000 ≤ (i 0).val ∧ (i 0).val < win0_2.index t (0 : Fin 2) * 20000 + 20000
    omega
  | ⟨1, _⟩ =>
    show win0_2.index t (1 : Fin 2) * 32 ≤ (i 1).val ∧ (i 1).val < win0_2.index t (1 : Fin 2) * 32 + 32
    omega

/-- After the region the output array is the product of the features with the weights, as launched. -/
theorem final (c : Dev nD) : (dats m 0 c).arrAt 2 cfg0.N
    = Stage.proj (m ((c.tc : Thread nD τ).loc main_arg0)) (m ((c.tc : Thread nD τ).loc main_arg2)) :=
  ((dats m 0 c).arrAt_eq_of_cover 2 _ (fun t _ => flushed_eq m c t) cover).trans
    (by rw [V_main_arg0, V_main_arg2])

/-! ## The host operations after the region -/

/-- The region leaves its output array at the product of the features with the weights. -/
theorem at_v11 (c : Dev nD) :
    Pipeline.withArrays (cfgs 0).spec c (V0 m c) (fun w => (dats m 0 c).arrAt w (cfgs 0).N) (Proc.devRef .tc main_v11)
      = Stage.proj (m ((c.tc : Thread nD τ).loc main_arg0)) (m ((c.tc : Thread nD τ).loc main_arg2)) :=
  (Pipeline.withArrays_arr spec0 launch0.win.arr_inj c _ _ 2).trans (final m c)

/-- Every other buffer is as the region found it. -/
theorem at_rest (c : Dev nD) (b : Ref sig .tc) (hb : ∀ w, Pipeline.arrRef spec0 w ≠ b) :
    Pipeline.withArrays (cfgs 0).spec c (V0 m c) (fun w => (dats m 0 c).arrAt w (cfgs 0).N) (Proc.devRef .tc b)
      = V0 m c (Proc.devRef .tc b) :=
  Pipeline.withArrays_of_ne _ c _ _ b hb

/-- The out-degrees were computed before the region, from the source endpoints. -/
theorem v5_eq (c : Dev nD) :
    (V m c main_v5 : (⟨S100000, .f32⟩ : BufTy).Contents (Elt Ideal)) = Stage.deg (m ((c.tc : Thread nD τ).loc main_arg4)) := by
  dsimp only [Gen.V, Gen.V0]
  simp only [Gen.hostOps0, List.flatten_cons, List.flatten_nil, List.append_nil]
  after_results_simp
  rfl

/-- The in-degrees were computed before the region, from the destination endpoints. -/
theorem v10_eq (c : Dev nD) :
    (V m c main_v10 : (⟨S100000, .f32⟩ : BufTy).Contents (Elt Ideal)) = Stage.deg (m ((c.tc : Thread nD τ).loc main_arg5)) := by
  dsimp only [Gen.V, Gen.V0]
  simp only [Gen.hostOps0, List.flatten_cons, List.flatten_nil, List.append_nil]
  after_results_simp
  rfl

set_option maxHeartbeats 4000000 in
theorem tail_eq (c : Dev nD) :
    Pipeline.afterTail₀ cfgs (dats m) 0 (V0 m) [hostOps1] c main_v36
      = Stage.out (Stage.proj (m ((c.tc : Thread nD τ).loc main_arg0)) (m ((c.tc : Thread nD τ).loc main_arg2)))
          (m ((c.tc : Thread nD τ).loc main_arg1)) (m ((c.tc : Thread nD τ).loc main_arg3))
          (m ((c.tc : Thread nD τ).loc main_arg4)) (m ((c.tc : Thread nD τ).loc main_arg5)) := by
  unfold Pipeline.afterTail₀
  show StableHlo.after hostOps1 _ (Proc.devRef .tc main_v36) = _
  after_results_simp
  rw [at_v11 m c,
    (at_rest m c main_v5 (by decide)).trans (v5_eq m c),
    (at_rest m c main_v10 (by decide)).trans (v10_eq m c),
    (at_rest m c main_arg1 (by decide)).trans (V_main_arg1 m c),
    (at_rest m c main_arg3 (by decide)).trans (V_main_arg3 m c),
    (at_rest m c main_arg4 (by decide)).trans (V_main_arg4 m c),
    (at_rest m c main_arg5 (by decide)).trans (V_main_arg5 m c)]
  rfl

/-! ## The run -/

/-- Every weakly fair execution of the program terminates with its result at the host stages applied to the product
    of the features with the weights, and with its six arguments as launched. -/
theorem run : θ_run (defs (F := Ideal)) (onTc (τ := τ) (main (F := Ideal))) ⟨m, fun _ => 0, ρ⟩ fun r => ∀ c : Dev nD,
      r.2.mem ((c.tc : Thread nD τ).loc main_v36)
          = Stage.out (Stage.proj (m ((c.tc : Thread nD τ).loc main_arg0)) (m ((c.tc : Thread nD τ).loc main_arg2)))
              (m ((c.tc : Thread nD τ).loc main_arg1)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v36 (Pipeline.mem_restRefs_of main_v36 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-- info: 'Cert.KernelIdeal.KerRun.run' depends on axioms: [propext, Classical.choice, Quot.sound] -/
#guard_msgs in #print axioms run

end Cert.KernelIdeal.KerRun

end
-- ==== Proof.LibRowIndex.lean ====
/-
  A scatter-add of rows and a gather of rows, read at an index.

  Both operations address the rows of a table by an integer read off an index array, one integer per update (or per
  result row): the index array has shape [E, 1], entry (e, 0) naming the row that update (or result) row e goes to
  (or comes from). For the scatter the integer is read signed and NOT clamped: update row e lands on table row n
  exactly when the integer IS n, and an update whose integer is outside the table is dropped. For the gather it is
  read signed and clamped into the table.
-/
import Idealize.ShloMosaic.Lib.ValueIdx

namespace Cert.Lib.RowIndex

open Idealize.ShloMosaic Idealize.ShloMosaic.ValueIdx

/-- The dimension numbers of a scatter of E scalars into a vector of N entries: one index per update, naming the
    entry; no window. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The index array is read at (e, 0): the update's one coordinate on axis 0, the one component of the index vector
    on axis 1. -/
private theorem vec_siIdx {N E : Nat} (wf : ScatterDims.WF ⟨1, ![N]⟩ ⟨2, ![E, 1]⟩ ⟨1, ![E]⟩ [] [0] [0] 1)
    (j : (⟨1, ![E]⟩ : Shape).Idx) (c : Fin (vecDims N E wf).scatterDimsToOperandDims.length) :
    (vecDims N E wf).siIdx j c = ix2 (j 0) 0 := by
  funext b; refine Fin.ext ?_
  match b with
  | ⟨0, _⟩ => rfl
  | ⟨1, _⟩ =>
    have : c.val < 1 := c.isLt
    show c.val = 0
    omega

/-- On the vector's one axis the start is the integer at (e, 0): the axis is the one the index map names. -/
private theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (a : Fin 1) :
    (vecDims N E wf).start j idx a = (idx (ix2 (j 0) 0)).toInt := by
  obtain rfl : a = 0 := Subsingleton.elim _ _
  unfold ScatterDims.start
  rw [dif_pos (show (0 : Fin 1) ∈ (vecDims N E wf).scatterDimsToOperandDims from List.mem_singleton.mpr rfl)]
  rw [vec_siIdx]
  rfl

/-- There is no window: the vector's one axis is an inserted one, so the window coordinate on it is 0. -/
private theorem vec_window {N E : Nat} (wf : ScatterDims.WF ⟨1, ![N]⟩ ⟨2, ![E, 1]⟩ ⟨1, ![E]⟩ [] [0] [0] 1)
    (j : (⟨1, ![E]⟩ : Shape).Idx) (a : Fin 1) :
    (vecDims N E wf).window j a = 0 := by
  unfold ScatterDims.window
  rw [dif_neg]
  obtain rfl : a = 0 := Subsingleton.elim _ _
  show (0 : Fin 1) ∉ (List.finRange 1).filter (fun a => decide (a ∉ [(0 : Fin 1)]))
  decide

/-- Update e of a vector scatter lands on entry i exactly when the integer at (e, 0) is i. -/
theorem vecDims_resultIdx?_eq_some_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  unfold ScatterDims.resultIdx?
  have hi : (i 0).val < N := (i 0).isLt
  constructor
  · -- the landing index exists: read the equality of indices on axis 0
    intro h
    split at h
    · rename_i hb
      have h0 := congrArg Fin.val (congrFun (Option.some.inj h) 0)
      have hb0 := hb 0
      simp only [vec_start, vec_window] at h0 hb0
      omega
    · exact absurd h (by simp)
  · -- the integer is i's coordinate, which is inside the vector
    intro hz
    have hb : ∀ a, 0 ≤ (vecDims N E wf).start j idx a + (vecDims N E wf).window j a ∧
        (vecDims N E wf).start j idx a + (vecDims N E wf).window j a < (⟨1, ![N]⟩ : Shape).size a := by
      intro a
      obtain rfl : a = 0 := Subsingleton.elim _ _
      rw [vec_start, vec_window, hz]
      show (0 : Int) ≤ ((i 0).val : Int) + ((0 : Nat) : Int) ∧ ((i 0).val : Int) + ((0 : Nat) : Int) < (N : Int)
      omega
    rw [dif_pos hb]
    congr 1
    funext a
    obtain rfl : a = 0 := Subsingleton.elim _ _
    refine Fin.ext ?_
    show ((vecDims N E wf).start j idx 0 + (vecDims N E wf).window j 0).toNat = (i 0).val
    rw [vec_start, vec_window, hz]
    omega

/-- The dimension numbers of a scatter of E rows of C entries into a table of N rows: one index per update row,
    naming the table row; the window is the whole row. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index array is read at (e, 0): the update row's coordinate on axis 0, the one component of the index vector
    on axis 1. -/
private theorem row_siIdx {N E C : Nat} (wf : ScatterDims.WF ⟨2, ![N, C]⟩ ⟨2, ![E, 1]⟩ ⟨2, ![E, C]⟩ [1] [0] [0] 1)
    (j : (⟨2, ![E, C]⟩ : Shape).Idx) (c : Fin (rowDims N E C wf).scatterDimsToOperandDims.length) :
    (rowDims N E C wf).siIdx j c = ix2 (j 0) 0 := by
  funext b; refine Fin.ext ?_
  match b with
  | ⟨0, _⟩ => rfl
  | ⟨1, _⟩ =>
    have : c.val < 1 := c.isLt
    show c.val = 0
    omega

/-- On the table's row axis the start is the integer at (e, 0): the index map names that axis. -/
private theorem row_start0 {N E C w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  rw [row_siIdx]
  rfl

/-- On the column axis the start is 0: the index map does not name it. -/
private theorem row_start1 {N E C w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 1 = 0 := by
  unfold ScatterDims.start
  rw [dif_neg]
  show (1 : Fin 2) ∉ [(0 : Fin 2)]
  decide

/-- The row axis is an inserted one: the window coordinate on it is 0. -/
private theorem row_window0 {N E C : Nat} (wf : ScatterDims.WF ⟨2, ![N, C]⟩ ⟨2, ![E, 1]⟩ ⟨2, ![E, C]⟩ [1] [0] [0] 1)
    (j : (⟨2, ![E, C]⟩ : Shape).Idx) :
    (rowDims N E C wf).window j 0 = 0 := by
  unfold ScatterDims.window
  rw [dif_neg]
  show (0 : Fin 2) ∉ (List.finRange 2).filter (fun a => decide (a ∉ [(0 : Fin 2)]))
  decide

/-- The column axis is the one kept axis, and the updates' one window axis goes to it: the window coordinate is the
    update's column. -/
private theorem row_window1 {N E C : Nat} (wf : ScatterDims.WF ⟨2, ![N, C]⟩ ⟨2, ![E, 1]⟩ ⟨2, ![E, C]⟩ [1] [0] [0] 1)
    (j : (⟨2, ![E, C]⟩ : Shape).Idx) :
    (rowDims N E C wf).window j 1 = (j 1).val := by
  unfold ScatterDims.window
  have h1 : (1 : Fin 2) ∈ (rowDims N E C wf).sKept := by
    show (1 : Fin 2) ∈ (List.finRange 2).filter (fun a => decide (a ∉ [(0 : Fin 2)]))
    decide
  rw [dif_pos h1]
  rfl

/-- Entry (e, f) of the updates of a row scatter lands on table entry (n, f') exactly when the integer at (e, 0) is n
    and f = f'. -/
theorem rowDims_resultIdx?_eq_some_iff {N E C w : Nat}
    (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  unfold ScatterDims.resultIdx?
  have hi0 : (i 0).val < N := idx2_lt0 i
  have hi1 : (i 1).val < C := idx2_lt1 i
  have hj1 : (j 1).val < C := idx2_lt1 j
  constructor
  · -- the landing index exists: read the equality of indices on each axis
    intro h
    split at h
    · rename_i hb
      have h0 := congrArg Fin.val (congrFun (Option.some.inj h) 0)
      have h1 := congrArg Fin.val (congrFun (Option.some.inj h) 1)
      have hb0 := hb 0
      simp only [row_start0, row_start1, row_window0, row_window1] at h0 h1 hb0
      omega
    · exact absurd h (by simp)
  · -- the integer is i's row, inside the table; the column is the update's own, inside the row
    rintro ⟨hz, hc⟩
    have hb : ∀ a, 0 ≤ (rowDims N E C wf).start j idx a + (rowDims N E C wf).window j a ∧
        (rowDims N E C wf).start j idx a + (rowDims N E C wf).window j a < (⟨2, ![N, C]⟩ : Shape).size a := by
      rw [Fin.forall_fin_two]
      refine ⟨?_, ?_⟩
      · rw [row_start0, row_window0, hz]
        show (0 : Int) ≤ ((i 0).val : Int) + ((0 : Nat) : Int) ∧ ((i 0).val : Int) + ((0 : Nat) : Int) < (N : Int)
        omega
      · rw [row_start1, row_window1]
        show (0 : Int) ≤ 0 + ((j 1).val : Int) ∧ (0 : Int) + ((j 1).val : Int) < (C : Int)
        omega
    rw [dif_pos hb]
    congr 1
    funext a
    refine Fin.ext ?_
    match a with
    | ⟨0, _⟩ =>
      show ((rowDims N E C wf).start j idx 0 + (rowDims N E C wf).window j 0).toNat = (i 0).val
      rw [row_start0, row_window0, hz]
      omega
    | ⟨1, _⟩ =>
      show ((rowDims N E C wf).start j idx 1 + (rowDims N E C wf).window j 1).toNat = (i 1).val
      rw [row_start1, row_window1]
      omega

/-- The dimension numbers of a gather of E rows out of a table of N rows of C entries: one index per result row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The index array is read at (e, 0): the result row's coordinate on axis 0 (the result's one batch axis), the one
    component of the index vector on axis 1. -/
private theorem rowGather_siIdx {N E C : Nat}
    (wf : GatherDims.WF ⟨2, ![N, C]⟩ ⟨2, ![E, 1]⟩ ⟨2, ![E, C]⟩ [1] [0] [] [0] [] 1 ![1, C])
    (e : Fin E) (f : Fin C) (c : Fin (rowGatherDims N E C wf).startIndexMap.length) :
    (rowGatherDims N E C wf).siIdx (ix2 e f) c = ix2 e 0 := by
  funext b; refine Fin.ext ?_
  match b with
  | ⟨0, _⟩ => rfl
  | ⟨1, _⟩ =>
    have : c.val < 1 := c.isLt
    show c.val = 0
    omega

/-- The row gather read at (e, f): the table at the row the integer at (e, 0) names, read signed and clamped into
    [0, N - 1], same column. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f)
      = x (ix2 ⟨min (idx (ix2 e 0)).toInt.toNat (N - 1), by omega⟩ f) := by
  unfold Host.gather
  congr 1
  funext a
  refine Fin.ext ?_
  match a with
  | ⟨0, _⟩ =>
    -- the row axis: collapsed (no offset), not batching, named by the start index map, slice size 1: the clamped integer
    show (rowGatherDims N E C wf).start (ix2 e f) idx 0 + (rowGatherDims N E C wf).batchCoord (ix2 e f) 0
        + (rowGatherDims N E C wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [rowGather_siIdx]
    rfl
  | ⟨1, _⟩ =>
    -- the column axis: not named by the start index map (start 0), not batching, the one offset axis: the result's column
    show (rowGatherDims N E C wf).start (ix2 e f) idx 1 + (rowGatherDims N E C wf).batchCoord (ix2 e f) 1
        + (rowGatherDims N E C wf).offCoord (ix2 e f) 1 = f.val
    have hs : (rowGatherDims N E C wf).start (ix2 e f) idx 1 = 0 := by
      unfold GatherDims.start
      rw [dif_neg]
      show (1 : Fin 2) ∉ [(0 : Fin 2)]
      decide
    have ho : (rowGatherDims N E C wf).offCoord (ix2 e f) 1 = f.val := by
      have h1 : (1 : Fin 2) ∈ (rowGatherDims N E C wf).sKept := by
        show (1 : Fin 2) ∈ (List.finRange 2).filter (fun a => decide (a ∉ [(0 : Fin 2)] ++ ([] : List (Fin 2))))
        decide
      unfold GatherDims.offCoord
      rw [dif_pos h1]
      rfl
    rw [hs, GatherDims.batchCoord_eq_zero _ _ _ List.not_mem_nil, ho]
    omega

end Cert.Lib.RowIndex
-- ==== Proof.LibScatterSum.lean ====
/-
  The accumulating scatter at the ideal instance, read at an index as a sum over the update rows.

  At the ideal instance a scatter-add leaves, at each entry of its operand, the entry plus the exact sum of the updates
  that land there. With one integer per update row naming the row it goes to, entry n of a vector receives the
  updates e whose integer is n; entry (n, f) of a table receives, from each update row e whose integer is n, its
  entry (e, f). Updates whose integer names no row contribute nothing.
-/
import proofs.«135186_j21182778704610_2_alg».proof.Proof.LibRowIndex
import Idealize.ShloMosaic.PureOps.Ideal
import Idealize.ShloMosaic.PureOps.Contract

noncomputable section

namespace Cert.Lib.RowIndex

open Idealize.ShloMosaic Idealize.ShloMosaic.ValueIdx

/-- A vector's index set is its one coordinate's range. -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Entry n of a vector after a scatter-add of E scalars: the entry, plus the updates whose integer is n. -/
theorem scatterVec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) (vecDims N E wf) x idx upd (ix1 n)
      = x (ix1 n) + ∑ e : Fin E, if (idx (ix2 e 0)).toInt = (n.val : Int) then upd (ix1 e) else 0 := by
  unfold Host.scatterAdd
  rw [Ideal.hostScatterAdd_def]
  unfold Ideal.hostScatterAdd
  simp only [vecDims_resultIdx?_eq_some_iff]
  rw [Finset.sum_filter, sum_idx1]
  rfl

/-- Entry (n, f) of a table after a scatter-add of E rows: the entry, plus entry f of each update row whose integer
    is n. -/
theorem scatterRow_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (f : Fin C) :
    Host.scatterAdd (F := Ideal) (φ := .f32) (rowDims N E C wf) x idx upd (ix2 n f)
      = x (ix2 n f) + ∑ e : Fin E, if (idx (ix2 e 0)).toInt = (n.val : Int) then upd (ix2 e f) else 0 := by
  unfold Host.scatterAdd
  rw [Ideal.hostScatterAdd_def]
  unfold Ideal.hostScatterAdd
  simp only [rowDims_resultIdx?_eq_some_iff]
  rw [Finset.sum_filter, sum_idx2]
  congr 1
  refine Finset.sum_congr rfl fun e _ => ?_
  show (∑ b : Fin C, if (idx (ix2 e 0)).toInt = (n.val : Int) ∧ b.val = f.val then upd (ix2 e b) else 0) = _
  by_cases h : (idx (ix2 e 0)).toInt = (n.val : Int)
  · rw [if_pos h, Finset.sum_eq_single f]
    · rw [if_pos ⟨h, rfl⟩]
    · intro b _ hb
      rw [if_neg (fun hv => hb (Fin.ext hv.2))]
    · intro hf; exact absurd (Finset.mem_univ f) hf
  · rw [if_neg h]
    exact Finset.sum_eq_zero fun b _ => if_neg (fun hv => h hv.1)

end Cert.Lib.RowIndex

end
-- ==== Proof.LibSumLaws.lean ====
/-
  The laws on the extended reals that join an aggregation over E edges plus a separate self term with the same
  aggregation over E + N edges, the last N of which are the nodes' own loops.

  * A sum over E + N positions is the sum over the first E plus the sum over the last N (commutativity and
    associativity only: it holds at the infinities too).
  * A sum of zeros and ones is a nonnegative REAL (a count); so a count plus one is at least one, clipping it below
    at one changes nothing, and its reciprocal square root is again a nonnegative real.
  * A nonnegative real scalar moves through a sum of products: multiplication by a nonnegative real distributes over
    ANY sum of extended reals (multiplication by an infinity would not).
-/
import Idealize.ShloMosaic.PureOps.Ideal
import Idealize.ShloMosaic.Lib.IdealHost

noncomputable section

namespace Cert.Lib.SumLaws

open Idealize.ShloMosaic

/-- A sum over `T = E + N` positions: the first `E`, then the last `N`. -/
theorem sum_fin_split {M : Type*} [AddCommMonoid M] {T E N : Nat} (h : E + N = T) (g : Fin T → M) :
    ∑ i, g i = (∑ e : Fin E, g (Fin.cast h (Fin.castAdd N e))) + ∑ j : Fin N, g (Fin.cast h (Fin.natAdd E j)) := by
  subst h
  simpa using Fin.sum_univ_add g

/-- A finite sum of reals, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- How many positions satisfy `p`, as a real number. -/
def count {ι : Type*} [Fintype ι] (p : ι → Prop) [DecidablePred p] : ℝ := ∑ i, if p i then 1 else 0

theorem count_nonneg {ι : Type*} [Fintype ι] (p : ι → Prop) [DecidablePred p] : 0 ≤ count p :=
  Finset.sum_nonneg fun i _ => by split_ifs <;> norm_num

/-- A sum of ones over the positions satisfying `p` (zeros elsewhere) is that count. -/
theorem sum_ite_one {ι : Type*} [Fintype ι] (p : ι → Prop) [DecidablePred p] :
    (∑ i, if p i then (1 : EReal) else 0) = (count p : EReal) := by
  unfold count
  rw [← coe_sum]
  refine Finset.sum_congr rfl fun i _ => ?_
  split_ifs <;> simp

/-- The reciprocal square root of a positive real is the real `1 / √r`. -/
theorem rsqrt_coe_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 hr.le), if_neg hr.ne']

/-- The reciprocal square root of a count plus one is a nonnegative real. -/
theorem rsqrt_add_one {c : ℝ} (hc : 0 ≤ c) : ∃ q : ℝ, 0 ≤ q ∧ Ideal.rsqrt ((c : EReal) + 1) = (q : EReal) := by
  refine ⟨(Real.sqrt (c + 1))⁻¹, inv_nonneg.2 (Real.sqrt_nonneg _), ?_⟩
  rw [← EReal.coe_one, ← EReal.coe_add, rsqrt_coe_pos (by linarith)]

/-- Clipping a count plus one below at one changes nothing. -/
theorem max_one_add {c : ℝ} (hc : 0 ≤ c) : max (1 : EReal) ((c : EReal) + 1) = (c : EReal) + 1 := by
  apply max_eq_right
  rw [← EReal.coe_one, ← EReal.coe_add, EReal.coe_le_coe_iff]
  linarith

/-- A nonnegative real scalar applied to the left factors of a sum of products is the scalar applied to the sum. -/
theorem sum_mul_real {ι : Type*} (s : Finset ι) (a w : ι → EReal) {q : ℝ} (hq : 0 ≤ q) :
    ∑ k ∈ s, (a k * (q : EReal)) * w k = (∑ k ∈ s, a k * w k) * (q : EReal) := by
  classical
  induction s using Finset.induction_on with
  | empty => simp
  | insert i s hi ih =>
    rw [Finset.sum_insert hi, Finset.sum_insert hi, ih,
      EReal.right_distrib_of_nonneg_of_ne_top (by exact_mod_cast hq) (EReal.coe_ne_top q), mul_right_comm]

end Cert.Lib.SumLaws

end
-- ==== Proof.Spec.lean ====
/-
  The integer side of the row addressing.

  A gather addresses a table of 100000 rows by a 32-bit integer: a negative integer is first moved up by 100000
  (indexing from the end), the result is read signed and clamped into 0 … 99999. A scatter reads its integer signed
  and does not clamp. On the integers j = 0 … 99999 themselves (the nodes' own loops) all of this is the identity:
  the integer j is read as j, is not negative, and names row j.
-/
import Idealize.ShloMosaic.PureOps.Ideal

namespace Cert.Spec

open Idealize.ShloMosaic

/-- A negative integer moved up by the number of rows; any other left alone. -/
def wrapv (v : BitVec 32) : BitVec 32 :=
  Scalar.select (IntOp.cmpi .slt v 0#32) (IntOp.addi v 100000#32) v

/-- The row a gather reads for the integer `v`: wrapped, read signed, clamped into the table. -/
def row (v : BitVec 32) : Fin 100000 := ⟨min (wrapv v).toInt.toNat (100000 - 1), by omega⟩

/-- The integer j < 100000 is read, signed, as j. -/
theorem toInt_ofNat_lt {j : Nat} (hj : j < 100000) : (BitVec.ofNat 32 j).toInt = (j : Int) := by
  have hm : j % 2 ^ 32 = j := Nat.mod_eq_of_lt (by omega)
  rw [BitVec.toInt_eq_toNat_cond, BitVec.toNat_ofNat, hm, if_pos (by omega)]

/-- It is not negative, so wrapping leaves it alone. -/
theorem wrapv_ofNat_lt {j : Nat} (hj : j < 100000) : wrapv (BitVec.ofNat 32 j) = BitVec.ofNat 32 j := by
  unfold wrapv IntOp.cmpi Scalar.select
  have hs : (BitVec.ofNat 32 j).slt 0#32 = false := by
    rw [BitVec.slt_eq_decide, toInt_ofNat_lt hj]
    simp
  simp [hs]

/-- And it names row j. -/
theorem row_ofNat_lt (j : Fin 100000) : row (BitVec.ofNat 32 j.val) = j := by
  apply Fin.ext
  show min (wrapv (BitVec.ofNat 32 j.val)).toInt.toNat (100000 - 1) = j.val
  rw [wrapv_ofNat_lt j.isLt, toInt_ofNat_lt j.isLt, Int.toNat_natCast]
  have := j.isLt
  omega

end Cert.Spec
-- ==== Proof.KerRead.lean ====
/-
  The kernel program's host stages, read at an index, at the ideal instance.

  Every stage is a pointwise operation, a repetition of a vector along an axis, a scatter-add or a gather, so each
  entry of each stage is an explicit expression in entries of its operands:
    deg e n        = (the number of edges i with e i = n) + 1
    rowScale d n f = rsqrt (d n)
    msg h w s e f  = h (row (s e)) f · w e
    agg … n f      = (the sum over the edges e with dst e = n of msg e f) + h n f
    fin r d b n f  = r n f · rsqrt (d n) + b f
-/
import proofs.«135186_j21182778704610_2_alg».proof.Proof.KerStages
import proofs.«135186_j21182778704610_2_alg».proof.Proof.LibScatterSum
import proofs.«135186_j21182778704610_2_alg».proof.Proof.LibSumLaws
import proofs.«135186_j21182778704610_2_alg».proof.Proof.Spec
import Idealize.ShloMosaic.Lib.Pipeline.Value
import Idealize.ShloMosaic.Lib.IdealHost

noncomputable section

namespace Cert.KernelIdeal.StageAt

open Cert.KernelIdeal Cert.KernelIdeal.Facts₀ Idealize.ShloMosaic Idealize.ShloMosaic.TcCoe Idealize.ShloMosaic.ValueIdx
open Cert.Lib Cert.Lib.RowIndex

/-- A vector over the edges repeated as a one-column table: entry (i, 0) is entry i. -/
theorem col_apply {α : Type} (e : S1600000.Idx → α) (i : Fin 1600000) :
    broadcastInDim S1600000x1 ![0] bcast_S1600000_S1600000x1_0 e (ix2 i 0) = e (ix1 i) :=
  broadcastInDim_apply _ bcast_S1600000_S1600000x1_0 e (ix2 i 0) (ix1 i) (fun a => match a with
    | ⟨0, _⟩ => by show i.val = if (1600000 : Nat) = 1 then 0 else i.val; rw [if_neg (by decide)])

theorem zerosN_apply (j : S100000.Idx) : Stage.zerosN (F := Ideal) j = 0 := Ideal.ofBits_zero_f32
theorem onesN_apply (j : S100000.Idx) : Stage.onesN (F := Ideal) j = 1 := Ideal.ofBits_one_f32
theorem onesE_apply (j : S1600000.Idx) : Stage.onesE (F := Ideal) j = 1 := Ideal.ofBits_one_f32

/-- The program's three index-addressed operations carry the dimension numbers of the general lemmas. -/
theorem dimsVec_eq : scatter_S100000_S1600000x1_S1600000_n_0_0_1
    = vecDims 100000 1600000 scatter_S100000_S1600000x1_S1600000_n_0_0_1_wf := rfl
theorem dimsRow_eq : scatter_S100000x32_S1600000x1_S1600000x32_1_0_0_1
    = rowDims 100000 1600000 32 scatter_S100000x32_S1600000x1_S1600000x32_1_0_0_1_wf := rfl
theorem dimsGather_eq : gather_S100000x32_S1600000x1_S1600000x32_1_0_n_n_0_1_132
    = rowGatherDims 100000 1600000 32 gather_S100000x32_S1600000x1_S1600000x32_1_0_n_n_0_1_132_wf := rfl

/-- A node's degree: the number of edges whose endpoint is the node, plus one. -/
theorem deg_apply (e : (⟨S1600000, .i32⟩ : BufTy).Contents (Elt Ideal)) (n : Fin 100000) :
    Stage.deg (F := Ideal) e (ix1 n)
      = (SumLaws.count (fun i : Fin 1600000 => (e (ix1 i)).toInt = (n.val : Int)) : EReal) + 1 := by
  unfold Stage.deg
  rw [addf_apply, dimsVec_eq, scatterVec_apply]
  simp only [zerosN_apply, onesN_apply, onesE_apply, col_apply e, zero_add]
  rw [SumLaws.sum_ite_one]

/-- The row scale at (n, f): the reciprocal square root of the node's quantity. -/
theorem rowScale_apply (d : (⟨S100000, .f32⟩ : BufTy).Contents (Elt Ideal)) (n : Fin 100000) (f : Fin 32) :
    Stage.rowScale (F := Ideal) d (ix2 n f) = Ideal.rsqrt (d (ix1 n)) := by
  unfold Stage.rowScale
  refine (broadcastInDim_apply _ bcast_S100000x1_S100000x32_0_1 _ (ix2 n f) (ix2 n 0) (fun a => match a with
    | ⟨0, _⟩ => by show n.val = if (100000 : Nat) = 1 then 0 else n.val; rw [if_neg (by decide)]
    | ⟨1, _⟩ => by show 0 = if (1 : Nat) = 1 then 0 else f.val; rw [if_pos rfl])).trans ?_
  refine (broadcastInDim_apply _ bcast_S100000_S100000x1_0 _ (ix2 n 0) (ix1 n) (fun a => match a with
    | ⟨0, _⟩ => by show n.val = if (100000 : Nat) = 1 then 0 else n.val; rw [if_neg (by decide)])).trans ?_
  rfl

/-- The scaled projection at (n, f). -/
theorem hid_apply (p : (⟨S100000x32, .f32⟩ : BufTy).Contents (Elt Ideal)) (src : (⟨S1600000, .i32⟩ : BufTy).Contents (Elt Ideal))
    (n : Fin 100000) (f : Fin 32) :
    Stage.hid (F := Ideal) p src (ix2 n f)
      = p (ix2 n f) * Ideal.rsqrt ((SumLaws.count (fun i : Fin 1600000 => (src (ix1 i)).toInt = (n.val : Int)) : EReal) + 1) := by
  unfold Stage.hid
  rw [mulf_apply, rowScale_apply, deg_apply]

/-- Wrapping, entry by entry. -/
theorem wrap_apply (e : (⟨S1600000, .i32⟩ : BufTy).Contents (Elt Ideal)) (j : S1600000.Idx) :
    Stage.wrap (F := Ideal) e j = Spec.wrapv (e j) := rfl

/-- The message along edge e, feature f: the row the source integer names, times the edge's weight. -/
theorem msg_apply (h : (⟨S100000x32, .f32⟩ : BufTy).Contents (Elt Ideal)) (w : (⟨S1600000, .f32⟩ : BufTy).Contents (Elt Ideal))
    (src : (⟨S1600000, .i32⟩ : BufTy).Contents (Elt Ideal)) (e : Fin 1600000) (f : Fin 32) :
    Stage.msg (F := Ideal) h w src (ix2 e f) = h (ix2 (Spec.row (src (ix1 e))) f) * w (ix1 e) := by
  unfold Stage.msg
  rw [mulf_apply, dimsGather_eq, rowGather_apply (N := 100000) (by decide)]
  congr 1
  · refine congrArg (fun r : Fin 100000 => h (ix2 r f)) (Fin.ext ?_)
    show min _ (100000 - 1) = min (Spec.wrapv (src (ix1 e))).toInt.toNat (100000 - 1)
    rw [col_apply (Stage.wrap (F := Ideal) src) e, wrap_apply]
  refine (broadcastInDim_apply _ bcast_S1600000x1_S1600000x32_0_1 _ (ix2 e f) (ix2 e 0) (fun a => match a with
    | ⟨0, _⟩ => by show e.val = if (1600000 : Nat) = 1 then 0 else e.val; rw [if_neg (by decide)]
    | ⟨1, _⟩ => by show 0 = if (1 : Nat) = 1 then 0 else f.val; rw [if_pos rfl])).trans ?_
  exact col_apply w e

/-- The aggregate at (n, f): the messages of the edges whose target integer is n, plus the node's own row. -/
theorem agg_apply (h : (⟨S100000x32, .f32⟩ : BufTy).Contents (Elt Ideal)) (w : (⟨S1600000, .f32⟩ : BufTy).Contents (Elt Ideal))
    (src dst : (⟨S1600000, .i32⟩ : BufTy).Contents (Elt Ideal)) (n : Fin 100000) (f : Fin 32) :
    Stage.agg (F := Ideal) h w src dst (ix2 n f)
      = (∑ e : Fin 1600000, if (dst (ix1 e)).toInt = (n.val : Int)
            then h (ix2 (Spec.row (src (ix1 e))) f) * w (ix1 e) else 0) + h (ix2 n f) := by
  unfold Stage.agg
  rw [addf_apply, dimsRow_eq, scatterRow_apply]
  have hz : broadcastInDim S100000x32 ![] bcast_S_S100000x32 (constant (F := Ideal) S_ .f32 0x00000000#32) (ix2 n f) = 0 :=
    Ideal.ofBits_zero_f32
  simp only [hz, col_apply dst, msg_apply, zero_add]

/-- The last two steps at (n, f). -/
theorem fin_apply (r : (⟨S100000x32, .f32⟩ : BufTy).Contents (Elt Ideal)) (d : (⟨S100000, .f32⟩ : BufTy).Contents (Elt Ideal))
    (b : (⟨S32, .f32⟩ : BufTy).Contents (Elt Ideal)) (n : Fin 100000) (f : Fin 32) :
    Stage.fin (F := Ideal) r d b (ix2 n f) = r (ix2 n f) * Ideal.rsqrt (d (ix1 n)) + b (ix1 f) := by
  unfold Stage.fin
  rw [addf_apply, mulf_apply, rowScale_apply]
  congr 1
  refine (broadcastInDim_apply _ bcast_S1x32_S100000x32_0_1 _ (ix2 n f) (ix2 0 f) (fun a => match a with
    | ⟨0, _⟩ => by show 0 = if (1 : Nat) = 1 then 0 else n.val; rw [if_pos rfl]
    | ⟨1, _⟩ => by show f.val = if (32 : Nat) = 1 then 0 else f.val; rw [if_neg (by decide)])).trans ?_
  exact broadcastInDim_apply _ bcast_S32_S1x32_1 b (ix2 0 f) (ix1 f) (fun a => match a with
    | ⟨0, _⟩ => by show f.val = if (32 : Nat) = 1 then 0 else f.val; rw [if_neg (by decide)])

end Cert.KernelIdeal.StageAt

end
-- ==== Proof.LibSelfLoops.lean ====
/-
  An edge list with the nodes' own loops appended.

  Joining an array over E edges with an array over N nodes gives an array over T = E + N positions: position e < E
  reads the first array at e, position E + j reads the second at j. When the second array is the nodes' own indices
  0 … N - 1 (as 32-bit integers, N below 2 ^ 31), the appended position E + j carries the integer j, which read signed
  is j. So a sum over all T positions of the terms whose integer is a given node n is the sum over the E edges whose
  integer is n, plus the one term of n's own loop.
-/
import Idealize.ShloMosaic.Lib.Pipeline.Value
import Idealize.ShloMosaic.Lib.ValueIdx

noncomputable section

namespace Cert.Lib.SelfLoops

open Idealize.ShloMosaic Idealize.ShloMosaic.ValueIdx

/-- Position e of the first E positions. -/
abbrev posL {E N T : Nat} (hT : E + N = T) (e : Fin E) : Fin T := Fin.cast hT (Fin.castAdd N e)
/-- Position E + j, among the last N positions. -/
abbrev posR {E N T : Nat} (hT : E + N = T) (j : Fin N) : Fin T := Fin.cast hT (Fin.natAdd E j)

/-- The joined array at one of the first E positions is the first array there. -/
theorem cat_left {α : Type} {E N T : Nat} (hT : E + N = T) (x : (⟨1, ![E]⟩ : Shape).Idx → α) (y : (⟨1, ![N]⟩ : Shape).Idx → α)
    (h : Shape.Concatenates [(⟨1, ![E]⟩ : Shape), (⟨1, ![N]⟩ : Shape)] ⟨1, ![T]⟩ 0) (e : Fin E) :
    concatenate (⟨1, ![T]⟩ : Shape) 0 [⟨(⟨1, ![E]⟩ : Shape), x⟩, ⟨(⟨1, ![N]⟩ : Shape), y⟩] h (ix1 (posL hT e)) = x (ix1 e) := by
  refine concatenate_pair_apply_left (0 : Fin 1) x y h (ix1 (posL hT e)) rfl (ix1 e) ?_
  intro b
  match b with
  | ⟨0, _⟩ => rfl

/-- The joined array at position E + j is the second array at j. -/
theorem cat_right {α : Type} {E N T : Nat} (hT : E + N = T) (x : (⟨1, ![E]⟩ : Shape).Idx → α) (y : (⟨1, ![N]⟩ : Shape).Idx → α)
    (h : Shape.Concatenates [(⟨1, ![E]⟩ : Shape), (⟨1, ![N]⟩ : Shape)] ⟨1, ![T]⟩ 0) (j : Fin N) :
    concatenate (⟨1, ![T]⟩ : Shape) 0 [⟨(⟨1, ![E]⟩ : Shape), x⟩, ⟨(⟨1, ![N]⟩ : Shape), y⟩] h (ix1 (posR hT j)) = y (ix1 j) := by
  refine concatenate_pair_apply_right (0 : Fin 1) x y h (ix1 (posR hT j)) rfl rfl (ix1 j) ?_ ?_
  · intro b hb
    match b with
    | ⟨0, _⟩ => exact absurd rfl hb
  · show j.val + E = E + j.val
    omega

/-- The integer j < N ≤ 2 ^ 31, read signed, is j. -/
theorem toInt_ofNat_of_lt {N j : Nat} (hN : N ≤ 2 ^ 31) (hj : j < N) : (BitVec.ofNat 32 j).toInt = (j : Int) := by
  have hm : j % 2 ^ 32 = j := Nat.mod_eq_of_lt (by omega)
  rw [BitVec.toInt_eq_toNat_cond, BitVec.toNat_ofNat, hm, if_pos (by omega)]

/-- A sum over the T = E + N positions is the sum over the first E plus the sum over the last N. -/
private theorem sum_split {M : Type} [AddCommMonoid M] {E N T : Nat} (hT : E + N = T) (g : Fin T → M) :
    ∑ i, g i = (∑ e : Fin E, g (posL hT e)) + ∑ j : Fin N, g (posR hT j) := by
  subst hT
  simpa using Fin.sum_univ_add g

/-- A sum over the T positions of the terms whose integer — an edge's, or a node's own index — is n: the sum over
    the edges whose integer is n, plus n's own term. -/
theorem sum_cat_filter {M : Type} [AddCommMonoid M] {E N T : Nat} (hT : E + N = T) (hN : N ≤ 2 ^ 31)
    (d : (⟨1, ![E]⟩ : Shape).Idx → BitVec 32)
    (h : Shape.Concatenates [(⟨1, ![E]⟩ : Shape), (⟨1, ![N]⟩ : Shape)] ⟨1, ![T]⟩ 0) (n : Fin N) (g : Fin T → M) :
    (∑ i : Fin T, if (concatenate (⟨1, ![T]⟩ : Shape) 0
          [⟨(⟨1, ![E]⟩ : Shape), d⟩, ⟨(⟨1, ![N]⟩ : Shape), iotaInDim (⟨1, ![N]⟩ : Shape) 32 0⟩] h (ix1 i)).toInt = (n.val : Int)
        then g i else 0)
      = (∑ e : Fin E, if (d (ix1 e)).toInt = (n.val : Int) then g (posL hT e) else 0) + g (posR hT n) := by
  rw [sum_split hT]
  congr 1
  · -- an edge position carries the edge's integer
    refine Finset.sum_congr rfl fun e _ => ?_
    rw [cat_left hT]
  · -- position E + j carries the integer j, which is n exactly when j = n: one term is left
    have hterm : ∀ j : Fin N,
        (if (concatenate (⟨1, ![T]⟩ : Shape) 0
            [⟨(⟨1, ![E]⟩ : Shape), d⟩, ⟨(⟨1, ![N]⟩ : Shape), iotaInDim (⟨1, ![N]⟩ : Shape) 32 0⟩] h
              (ix1 (posR hT j))).toInt = (n.val : Int)
          then g (posR hT j) else 0) = if j = n then g (posR hT j) else 0 := by
      intro j
      rw [cat_right hT]
      have hj : (iotaInDim (⟨1, ![N]⟩ : Shape) 32 0 (ix1 j)).toInt = (j.val : Int) :=
        toInt_ofNat_of_lt hN j.isLt
      rw [hj]
      by_cases hjn : j = n
      · rw [if_pos hjn, if_pos (by rw [hjn])]
      · rw [if_neg hjn, if_neg]
        intro hh
        exact hjn (Fin.ext (Int.ofNat_inj.mp hh))
    rw [Finset.sum_congr rfl fun j _ => hterm j, Finset.sum_ite_eq', if_pos (Finset.mem_univ n)]

end Cert.Lib.SelfLoops

end
-- ==== Proof.RefDeg.lean ====
/-
  The reference program's degrees, read at an index, at the ideal instance.

  The reference appends the nodes' own loops to the edge list before counting: a node's degree is a scatter-add of
  ones over all 1700000 positions — the edges whose endpoint is the node, plus the node's own loop —, then clipped
  below at one. The count is nonnegative, so the clip changes nothing: the degree is the edge count plus one.
-/
import proofs.«135186_j21182778704610_2_alg».proof.Proof.Gen.ReferenceIdeal.Read
import proofs.«135186_j21182778704610_2_alg».proof.Proof.LibScatterSum
import proofs.«135186_j21182778704610_2_alg».proof.Proof.LibSelfLoops
import proofs.«135186_j21182778704610_2_alg».proof.Proof.LibSumLaws
import Idealize.ShloMosaic.Lib.IdealHost

noncomputable section

namespace Cert.ReferenceIdeal.RefDeg

open Cert.ReferenceIdeal Cert.ReferenceIdeal.Facts₀ Cert.ReferenceIdeal.Read
open Idealize.ShloMosaic Idealize.ShloMosaic.TcCoe Idealize.ShloMosaic.ValueIdx
open Cert.Lib Cert.Lib.RowIndex Cert.Lib.SelfLoops

/-- The reference's vector scatter carries the dimension numbers of the general lemma. -/
theorem dimsVec_eq : scatter_S100000_S1700000x1_S1700000_n_0_0_1
    = vecDims 100000 1700000 scatter_S100000_S1700000x1_S1700000_n_0_0_1_wf := rfl

/-- 1600000 edges and 100000 loops make the 1700000 positions. -/
theorem hT : 1600000 + 100000 = 1700000 := by norm_num
theorem hN : 100000 ≤ 2 ^ 31 := by norm_num

/-- An array over the 1700000 positions repeated as a one-column table: entry (i, 0) is entry i. -/
theorem col_apply {α : Type} (e : S1700000.Idx → α) (i : Fin 1700000) :
    broadcastInDim S1700000x1 ![0] bcast_S1700000_S1700000x1_0 e (ix2 i 0) = e (ix1 i) :=
  broadcastInDim_apply _ bcast_S1700000_S1700000x1_0 e (ix2 i 0) (ix1 i) (fun a => match a with
    | ⟨0, _⟩ => by show i.val = if (1700000 : Nat) = 1 then 0 else i.val; rw [if_neg (by decide)])

/-- The degree with respect to an endpoint array `e`, as the reference computes it — a scatter-add of ones at the
    endpoints joined with the nodes' own indices, clipped below at one —, is the edge count plus one. The constant
    operands enter through what they hold: zeros `z`, ones `o` over the positions, ones `c` over the nodes. -/
theorem deg_raw (e : (⟨S1600000, .i32⟩ : BufTy).Contents (Elt Ideal))
    (z c : (⟨S100000, .f32⟩ : BufTy).Contents (Elt Ideal)) (o : (⟨S1700000, .f32⟩ : BufTy).Contents (Elt Ideal))
    (hz : ∀ j, z j = 0) (hc : ∀ j, c j = 1) (ho : ∀ j, o j = 1) (n : Fin 100000) :
    maximumf (F := Ideal) (φ := .f32) c (Host.scatterAdd (F := Ideal) (φ := .f32) scatter_S100000_S1700000x1_S1700000_n_0_0_1 z
        (broadcastInDim S1700000x1 ![0] bcast_S1700000_S1700000x1_0 (val_main_v1 (F := Ideal) e)) o) (ix1 n)
      = (SumLaws.count (fun i : Fin 1600000 => (e (ix1 i)).toInt = (n.val : Int)) : EReal) + 1 := by
  rw [maximumf_apply, dimsVec_eq, scatterVec_apply]
  simp only [hz, hc, ho, col_apply (val_main_v1 (F := Ideal) e), zero_add]
  unfold val_main_v1 val_main_v0
  rw [sum_cat_filter hT hN e concatenates_S1600000_S100000_S1700000_d0 n (fun _ => (1 : EReal)),
    SumLaws.sum_ite_one]
  exact SumLaws.max_one_add (SumLaws.count_nonneg _)

/-- The reference's out-degree (endpoints: the sources). -/
theorem v9_apply (x4 : (⟨S1600000, .i32⟩ : BufTy).Contents (Elt Ideal)) (n : Fin 100000) :
    val_main_v9 (F := Ideal) x4 (ix1 n)
      = (SumLaws.count (fun i : Fin 1600000 => (x4 (ix1 i)).toInt = (n.val : Int)) : EReal) + 1 :=
  deg_raw x4 (val_main_v6 (F := Ideal)) (val_main_call0_v1 (F := Ideal)) (val_main_v5 (F := Ideal))
    (fun _ => Ideal.ofBits_zero_f32) (fun _ => Ideal.ofBits_one_f32) (fun _ => Ideal.ofBits_one_f32) n

/-- The reference's in-degree (endpoints: the targets). -/
theorem v13_apply (x5 : (⟨S1600000, .i32⟩ : BufTy).Contents (Elt Ideal)) (n : Fin 100000) :
    val_main_v13 (F := Ideal) x5 (ix1 n)
      = (SumLaws.count (fun i : Fin 1600000 => (x5 (ix1 i)).toInt = (n.val : Int)) : EReal) + 1 :=
  deg_raw x5 (val_main_v10 (F := Ideal)) (val_main_call1_v1 (F := Ideal)) (val_main_v5 (F := Ideal))
    (fun _ => Ideal.ofBits_zero_f32) (fun _ => Ideal.ofBits_one_f32) (fun _ => Ideal.ofBits_one_f32) n

end Cert.ReferenceIdeal.RefDeg

end
-- ==== Proof.RefHid.lean ====
/-
  The reference's scaled projection read at an index.

  The reference scales each node's feature row by the reciprocal square root of its degree BEFORE multiplying by the
  weight matrix: entry (n, f) of its product is the sum over k < 128 of (X (n, k) · s n) · W (k, f), with
  s n = rsqrt (count n + 1) and count n the number of edges whose endpoint is the node n. A count plus one is at least
  one, so s n is a nonnegative REAL, and a nonnegative real factor moves out of any sum of extended reals: the entry
  is (the sum over k < 128 of X (n, k) · W (k, f)) · s n — the product first, the scale after.
-/
import proofs.«135186_j21182778704610_2_alg».proof.Proof.Gen.ReferenceIdeal.Read
import proofs.«135186_j21182778704610_2_alg».proof.Proof.LibSumLaws
import Idealize.ShloMosaic.Lib.ValueIdx

noncomputable section

namespace Cert.ReferenceIdeal.RefHid

open Cert.ReferenceIdeal Cert.ReferenceIdeal.Read Idealize.ShloMosaic Idealize.ShloMosaic.ValueIdx
open Cert.Lib.SumLaws

/-- At output entry (n, f) and contracted position k the product reads its left operand at (n, k). -/
theorem lidx_eq (n : Fin 100000) (f : Fin 32) (k : Fin 128) : lidx_main_v18 (ix2 n f) k = ix2 n k :=
  funext fun a => Fin.ext (by match a with | ⟨0, _⟩ => rfl | ⟨1, _⟩ => rfl)

/-- And its right operand at (k, f). -/
theorem ridx_eq (n : Fin 100000) (f : Fin 32) (k : Fin 128) : ridx_main_v18 (ix2 n f) k = ix2 k f :=
  funext fun a => Fin.ext (by match a with | ⟨0, _⟩ => rfl | ⟨1, _⟩ => rfl)

/-- The scale repeated along the 128 features reads, at (n, k), the per-node scale at n. -/
theorem scale_idx_eq (n : Fin 100000) (k : Fin 128) : idx_main_v15 (idx_main_v16 (ix2 n k)) = ix1 n :=
  funext fun a => Fin.ext (by match a with | ⟨0, _⟩ => rfl)

/-- Entry (n, f) of the reference's product of the scaled features with the weights is the unscaled product's entry
    times the node's scale, given that the node's clipped degree is its count of edges plus one (`hdeg`). -/
theorem v18_apply (x0 : (⟨S100000x128, .f32⟩ : BufTy).Contents (Elt Ideal)) (x2 : (⟨S128x32, .f32⟩ : BufTy).Contents (Elt Ideal))
    (x4 : (⟨S1600000, .i32⟩ : BufTy).Contents (Elt Ideal))
    (hdeg : ∀ n : Fin 100000, val_main_v9 (F := Ideal) x4 (ix1 n)
      = (Cert.Lib.SumLaws.count (fun i : Fin 1600000 => (x4 (ix1 i)).toInt = (n.val : Int)) : EReal) + 1)
    (n : Fin 100000) (f : Fin 32) :
    val_main_v18 (F := Ideal) x0 x2 x4 (ix2 n f)
      = (∑ k : Fin 128, x0 (ix2 n k) * x2 (ix2 k f))
        * Ideal.rsqrt ((Cert.Lib.SumLaws.count (fun i : Fin 1600000 => (x4 (ix1 i)).toInt = (n.val : Int)) : EReal) + 1) := by
  rw [val_main_v18_apply]
  obtain ⟨q, hq, hr⟩ := rsqrt_add_one (count_nonneg (fun i : Fin 1600000 => (x4 (ix1 i)).toInt = (n.val : Int)))
  rw [hr, ← sum_mul_real Finset.univ _ _ hq]
  refine Finset.sum_congr rfl fun k _ => ?_
  rw [lidx_eq, ridx_eq, val_main_v17_apply, val_main_v16_apply, val_main_v15_apply, val_main_v14_apply, scale_idx_eq,
    hdeg n, Ideal.mulf_def, Ideal.hostUnary_rsqrt_def, hr]

end Cert.ReferenceIdeal.RefHid

end
-- ==== Proof.RefAgg.lean ====
/-
  The reference's aggregate read at an index.

  The reference appends the nodes' own loops to the edge list: position i < 1600000 is edge i, position 1600000 + j
  is node j's loop, whose two endpoints are the integer j and whose weight is one. ONE scatter-add over the 1700000
  positions then sums, at table entry (n, f), the messages of the positions whose target integer is n; the message
  of position i is entry f of the table row its (wrapped, clamped) source integer names, times its weight. Splitting
  the positions into the edges and the loops, entry (n, f) is the sum over the edges e whose target is n of
  h (row (src e), f) · w e, plus the one loop term h (n, f) · 1 = h (n, f): the integer j names row j, is read
  signed as j, and is not negative.
-/
import proofs.«135186_j21182778704610_2_alg».proof.Proof.Gen.ReferenceIdeal.Read
import proofs.«135186_j21182778704610_2_alg».proof.Proof.LibScatterSum
import proofs.«135186_j21182778704610_2_alg».proof.Proof.LibSelfLoops
import proofs.«135186_j21182778704610_2_alg».proof.Proof.Spec
import Idealize.ShloMosaic.Lib.Pipeline.Value
import Idealize.ShloMosaic.Lib.IdealHost

noncomputable section

namespace Cert.ReferenceIdeal.RefAgg

open Cert.ReferenceIdeal Cert.ReferenceIdeal.Facts₀ Cert.ReferenceIdeal.Read
open Idealize.ShloMosaic Idealize.ShloMosaic.TcCoe Idealize.ShloMosaic.ValueIdx
open Cert.Lib Cert.Lib.RowIndex Cert.Lib.SelfLoops

/-- The reference's row scatter and row gather carry the dimension numbers of the general lemmas. -/
theorem dimsRow_eq : scatter_S100000x32_S1700000x1_S1700000x32_1_0_0_1
    = rowDims 100000 1700000 32 scatter_S100000x32_S1700000x1_S1700000x32_1_0_0_1_wf := rfl
theorem dimsGather_eq : gather_S100000x32_S1700000x1_S1700000x32_1_0_n_n_0_1_132
    = rowGatherDims 100000 1700000 32 gather_S100000x32_S1700000x1_S1700000x32_1_0_n_n_0_1_132_wf := rfl

/-- 1600000 edges and 100000 loops make the 1700000 positions. -/
theorem hT : 1600000 + 100000 = 1700000 := by norm_num
theorem hN : 100000 ≤ 2 ^ 31 := by norm_num

/-- An array over the 1700000 positions repeated as a one-column table: entry (i, 0) is entry i. -/
theorem col_apply {α : Type} (e : S1700000.Idx → α) (i : Fin 1700000) :
    broadcastInDim S1700000x1 ![0] bcast_S1700000_S1700000x1_0 e (ix2 i 0) = e (ix1 i) :=
  broadcastInDim_apply _ bcast_S1700000_S1700000x1_0 e (ix2 i 0) (ix1 i) (fun a => match a with
    | ⟨0, _⟩ => by show i.val = if (1700000 : Nat) = 1 then 0 else i.val; rw [if_neg (by decide)])

/-- The scatter-add of the weighted gathered rows, over abstract arrays of the 1700000 positions: target integers
    `t`, source integers `s` naming the rows `r`, weights `w`, into zeros. Entry (n, f) is the sum over the positions
    whose target integer is n of the named row's entry f times the weight. -/
theorem agg_raw (h z : (⟨S100000x32, .f32⟩ : BufTy).Contents (Elt Ideal)) (hz : ∀ j, z j = 0)
    (s t : (⟨S1700000, .i32⟩ : BufTy).Contents (Elt Ideal)) (w : (⟨S1700000, .f32⟩ : BufTy).Contents (Elt Ideal))
    (r : Fin 1700000 → Fin 100000) (hr : ∀ i, min (s (ix1 i)).toInt.toNat (100000 - 1) = (r i).val)
    (n : Fin 100000) (f : Fin 32) :
    Host.scatterAdd (F := Ideal) (φ := .f32) scatter_S100000x32_S1700000x1_S1700000x32_1_0_0_1 z
        (broadcastInDim S1700000x1 ![0] bcast_S1700000_S1700000x1_0 t)
        (mulf (F := Ideal) (φ := .f32) (Host.gather gather_S100000x32_S1700000x1_S1700000x32_1_0_n_n_0_1_132 h
            (broadcastInDim S1700000x1 ![0] bcast_S1700000_S1700000x1_0 s))
          (broadcastInDim S1700000x32 ![0, 1] bcast_S1700000x1_S1700000x32_0_1
            (broadcastInDim S1700000x1 ![0] bcast_S1700000_S1700000x1_0 w))) (ix2 n f)
      = ∑ i : Fin 1700000, if (t (ix1 i)).toInt = (n.val : Int) then h (ix2 (r i) f) * w (ix1 i) else 0 := by
  rw [dimsRow_eq, scatterRow_apply, hz, zero_add]
  refine Finset.sum_congr rfl fun i _ => ?_
  rw [col_apply t i]
  refine congrArg (fun v : EReal => if (t (ix1 i)).toInt = (n.val : Int) then v else 0) ?_
  rw [mulf_apply, dimsGather_eq, rowGather_apply (N := 100000) (by decide)]
  congr 1
  · refine congrArg (fun q : Fin 100000 => h (ix2 q f)) (Fin.ext ?_)
    show min _ (100000 - 1) = (r i).val
    rw [col_apply s i]
    exact hr i
  · refine (broadcastInDim_apply _ bcast_S1700000x1_S1700000x32_0_1 _ (ix2 i f) (ix2 i 0) (fun a => match a with
      | ⟨0, _⟩ => by show i.val = if (1700000 : Nat) = 1 then 0 else i.val; rw [if_neg (by decide)]
      | ⟨1, _⟩ => by show 0 = if (1 : Nat) = 1 then 0 else f.val; rw [if_pos rfl])).trans ?_
    exact col_apply w i

/-- The wrapped source integer of a position: a negative integer moved up by the number of nodes. -/
theorem v23_wrap (x4 : (⟨S1600000, .i32⟩ : BufTy).Contents (Elt Ideal)) (i : Fin 1700000) :
    val_main_v23 (F := Ideal) x4 (ix1 i) = Cert.Spec.wrapv (val_main_v1 (F := Ideal) x4 (ix1 i)) := by
  rw [val_main_v23_apply, val_main_v20_apply, val_main_v22_apply, val_main_v19_apply, val_main_v21_apply]
  rfl

/-- At an edge's position the joined sources read the edge's source, … -/
theorem v1_left (x4 : (⟨S1600000, .i32⟩ : BufTy).Contents (Elt Ideal)) (e : Fin 1600000) :
    val_main_v1 (F := Ideal) x4 (ix1 (posL hT e)) = x4 (ix1 e) := by
  unfold val_main_v1
  exact cat_left hT x4 _ concatenates_S1600000_S100000_S1700000_d0 e

/-- … at node j's loop the integer j; -/
theorem v1_right (x4 : (⟨S1600000, .i32⟩ : BufTy).Contents (Elt Ideal)) (j : Fin 100000) :
    val_main_v1 (F := Ideal) x4 (ix1 (posR hT j)) = BitVec.ofNat 32 j.val := by
  unfold val_main_v1
  exact (cat_right hT x4 _ concatenates_S1600000_S100000_S1700000_d0 j).trans rfl

/-- the joined weights read the edge's weight, … -/
theorem v4_left (x1 : (⟨S1600000, .f32⟩ : BufTy).Contents (Elt Ideal)) (e : Fin 1600000) :
    val_main_v4 (F := Ideal) x1 (ix1 (posL hT e)) = x1 (ix1 e) := by
  unfold val_main_v4
  exact cat_left hT x1 _ concatenates_S1600000_S100000_S1700000_d0 e

/-- … and at a loop the weight one. -/
theorem v4_right (x1 : (⟨S1600000, .f32⟩ : BufTy).Contents (Elt Ideal)) (j : Fin 100000) :
    val_main_v4 (F := Ideal) x1 (ix1 (posR hT j)) = 1 := by
  unfold val_main_v4
  exact (cat_right hT x1 _ concatenates_S1600000_S100000_S1700000_d0 j).trans Ideal.ofBits_one_f32

/-- Entry (n, f) of the reference's aggregate: the messages of the edges whose target integer is n, plus the node's
    own row of the projected table (its loop, of weight one). -/
theorem v31_apply (x0 : (⟨S100000x128, .f32⟩ : BufTy).Contents (Elt Ideal)) (x1 : (⟨S1600000, .f32⟩ : BufTy).Contents (Elt Ideal))
    (x2 : (⟨S128x32, .f32⟩ : BufTy).Contents (Elt Ideal)) (x4 x5 : (⟨S1600000, .i32⟩ : BufTy).Contents (Elt Ideal))
    (n : Fin 100000) (f : Fin 32) :
    val_main_v31 (F := Ideal) x0 x1 x2 x4 x5 (ix2 n f)
      = (∑ e : Fin 1600000, if (x5 (ix1 e)).toInt = (n.val : Int)
            then val_main_v18 (F := Ideal) x0 x2 x4 (ix2 (Cert.Spec.row (x4 (ix1 e))) f) * x1 (ix1 e) else 0)
        + val_main_v18 (F := Ideal) x0 x2 x4 (ix2 n f) := by
  unfold val_main_v31 val_main_v30 val_main_v28 val_main_v25 val_main_v24 val_main_v27 val_main_v26
  generalize val_main_v18 (F := Ideal) x0 x2 x4 = h
  rw [agg_raw h (val_main_v29 (F := Ideal)) (fun _ => Ideal.ofBits_zero_f32) (val_main_v23 (F := Ideal) x4)
    (val_main_v2 (F := Ideal) x5) (val_main_v4 (F := Ideal) x1)
    (fun i => Cert.Spec.row (val_main_v1 (F := Ideal) x4 (ix1 i))) (fun i => by rw [v23_wrap]; rfl) n f]
  unfold val_main_v2 val_main_v0
  rw [sum_cat_filter hT hN x5 concatenates_S1600000_S100000_S1700000_d0 n
    (fun i => h (ix2 (Cert.Spec.row (val_main_v1 (F := Ideal) x4 (ix1 i))) f) * val_main_v4 (F := Ideal) x1 (ix1 i))]
  refine congrArg₂ (· + ·) (Finset.sum_congr rfl fun e _ => ?_) ?_
  · rw [v1_left, v4_left]
  · rw [v1_right, v4_right, Cert.Spec.row_ofNat_lt, mul_one]

end Cert.ReferenceIdeal.RefAgg

end
-- ==== Proof.Bridge.lean ====
/-
  The two programs compute one function.

  The reference's result, stage by stage, is the kernel program's result: the two degrees are the same counts plus
  one (the clip does nothing); the reference's scaled-then-multiplied features are the kernel's multiplied-then-scaled
  ones (the scale is a nonnegative real); the reference's aggregate over the edges and the appended loops is the
  kernel's aggregate over the edges plus the node's own row; the last two steps are the same operations.
-/
import proofs.«135186_j21182778704610_2_alg».proof.Proof.Gen.ReferenceIdeal.Read
import proofs.«135186_j21182778704610_2_alg».proof.Proof.KerStages
import proofs.«135186_j21182778704610_2_alg».proof.Proof.KerRead
import proofs.«135186_j21182778704610_2_alg».proof.Proof.RefDeg
import proofs.«135186_j21182778704610_2_alg».proof.Proof.RefHid
import proofs.«135186_j21182778704610_2_alg».proof.Proof.RefAgg

noncomputable section

namespace Cert.Bridge

open Idealize.ShloMosaic Idealize.ShloMosaic.TcCoe Idealize.ShloMosaic.ValueIdx

/-- The in-degree: the reference's clipped count over edges and loops is the kernel's count over edges plus one. -/
theorem deg_eq (e : (⟨Cert.KernelIdeal.S1600000, .i32⟩ : BufTy).Contents (Elt Ideal)) :
    Cert.ReferenceIdeal.Read.val_main_v13 (F := Ideal) e = Cert.KernelIdeal.Stage.deg (F := Ideal) e := by
  funext i
  obtain ⟨n, rfl⟩ : ∃ n : Fin 100000, i = ix1 n := ⟨i 0, eq_ix1 i⟩
  rw [Cert.ReferenceIdeal.RefDeg.v13_apply, Cert.KernelIdeal.StageAt.deg_apply]

/-- The hidden rows: scaling the features by a nonnegative real before the product is scaling the product. -/
theorem hid_eq (x0 : (⟨Cert.KernelIdeal.S100000x128, .f32⟩ : BufTy).Contents (Elt Ideal))
    (x2 : (⟨Cert.KernelIdeal.S128x32, .f32⟩ : BufTy).Contents (Elt Ideal))
    (x4 : (⟨Cert.KernelIdeal.S1600000, .i32⟩ : BufTy).Contents (Elt Ideal)) :
    Cert.ReferenceIdeal.Read.val_main_v18 (F := Ideal) x0 x2 x4
      = Cert.KernelIdeal.Stage.hid (F := Ideal) (Cert.KernelIdeal.Stage.proj x0 x2) x4 := by
  funext i
  obtain ⟨n, f, rfl⟩ : ∃ (n : Fin 100000) (f : Fin 32), i = ix2 n f := ⟨i 0, i 1, eq_ix2 i⟩
  rw [Cert.ReferenceIdeal.RefHid.v18_apply x0 x2 x4 (Cert.ReferenceIdeal.RefDeg.v9_apply x4),
    Cert.KernelIdeal.StageAt.hid_apply]
  rfl

/-- The aggregate: one sum over edges and loops is the sum over edges plus the node's own row. -/
theorem agg_eq (x0 : (⟨Cert.KernelIdeal.S100000x128, .f32⟩ : BufTy).Contents (Elt Ideal))
    (x1 : (⟨Cert.KernelIdeal.S1600000, .f32⟩ : BufTy).Contents (Elt Ideal))
    (x2 : (⟨Cert.KernelIdeal.S128x32, .f32⟩ : BufTy).Contents (Elt Ideal))
    (x4 x5 : (⟨Cert.KernelIdeal.S1600000, .i32⟩ : BufTy).Contents (Elt Ideal)) :
    Cert.ReferenceIdeal.Read.val_main_v31 (F := Ideal) x0 x1 x2 x4 x5
      = Cert.KernelIdeal.Stage.agg (F := Ideal) (Cert.ReferenceIdeal.Read.val_main_v18 (F := Ideal) x0 x2 x4) x1 x4 x5 := by
  funext i
  obtain ⟨n, f, rfl⟩ : ∃ (n : Fin 100000) (f : Fin 32), i = ix2 n f := ⟨i 0, i 1, eq_ix2 i⟩
  rw [Cert.ReferenceIdeal.RefAgg.v31_apply, Cert.KernelIdeal.StageAt.agg_apply]

/-- The last two steps are the same operations on both sides. -/
theorem fin_eq (x0 : (⟨Cert.KernelIdeal.S100000x128, .f32⟩ : BufTy).Contents (Elt Ideal))
    (x1 : (⟨Cert.KernelIdeal.S1600000, .f32⟩ : BufTy).Contents (Elt Ideal))
    (x2 : (⟨Cert.KernelIdeal.S128x32, .f32⟩ : BufTy).Contents (Elt Ideal))
    (x3 : (⟨Cert.KernelIdeal.S32, .f32⟩ : BufTy).Contents (Elt Ideal))
    (x4 x5 : (⟨Cert.KernelIdeal.S1600000, .i32⟩ : BufTy).Contents (Elt Ideal)) :
    Cert.ReferenceIdeal.Read.val_main_v38 (F := Ideal) x0 x1 x2 x3 x4 x5
      = Cert.KernelIdeal.Stage.fin (F := Ideal) (Cert.ReferenceIdeal.Read.val_main_v31 (F := Ideal) x0 x1 x2 x4 x5)
          (Cert.ReferenceIdeal.Read.val_main_v13 (F := Ideal) x5) x3 := rfl

/-- The reference's result is the kernel program's result of the same arguments. -/
theorem out_eq (x0 : (⟨Cert.KernelIdeal.S100000x128, .f32⟩ : BufTy).Contents (Elt Ideal))
    (x1 : (⟨Cert.KernelIdeal.S1600000, .f32⟩ : BufTy).Contents (Elt Ideal))
    (x2 : (⟨Cert.KernelIdeal.S128x32, .f32⟩ : BufTy).Contents (Elt Ideal))
    (x3 : (⟨Cert.KernelIdeal.S32, .f32⟩ : BufTy).Contents (Elt Ideal))
    (x4 x5 : (⟨Cert.KernelIdeal.S1600000, .i32⟩ : BufTy).Contents (Elt Ideal)) :
    Cert.ReferenceIdeal.Read.val_main_v38 (F := Ideal) x0 x1 x2 x3 x4 x5
      = Cert.KernelIdeal.Stage.out (F := Ideal) (Cert.KernelIdeal.Stage.proj x0 x2) x1 x3 x4 x5 := by
  rw [fin_eq, agg_eq, hid_eq, deg_eq]
  rfl

end Cert.Bridge

end
-- ==== Proof.Claims.lean ====
/-
  The five claims.

  Each of the three programs runs to the end and leaves its six argument arrays as they were; for the kernel program,
  at either reading of the floats, that is its region's frame; for the reference it is its run with the result
  forgotten. The idealized kernel program is the kernel program's own text, so there is nothing to preserve.
  At exact arithmetic the kernel program ends with its result array at the host stages applied to the product of
  the features with the weights, and the reference ends with its result array at its own operations' composed term;
  from argument arrays that agree, the second term is the first (the bridge between the two), so the two results are
  equal entry by entry.
-/
import proofs.«135186_j21182778704610_2_alg».proof.Defs
import proofs.«135186_j21182778704610_2_alg».proof.Proof.Gen.Pre_finite_inputs
import proofs.«135186_j21182778704610_2_alg».proof.Proof.Gen.Kernel.Frame
import proofs.«135186_j21182778704610_2_alg».proof.Proof.Gen.KernelIdeal.Frame
import proofs.«135186_j21182778704610_2_alg».proof.Proof.Gen.ReferenceIdeal.Run
import proofs.«135186_j21182778704610_2_alg».proof.Proof.Gen.ReferenceIdeal.Read
import proofs.«135186_j21182778704610_2_alg».proof.Proof.KerRun
import proofs.«135186_j21182778704610_2_alg».proof.Proof.Bridge

noncomputable section

namespace Cert.Proof.Claims

open Idealize.ShloMosaic Idealize.SL.Sem

/-- The kernel program, floats read as bit patterns, runs and keeps its arguments. -/
theorem frame_kernel : Cert.frame_Kernel := fun m g _ => Cert.Kernel.Gen.frame m g

/-- The kernel program, floats read as extended reals, runs and keeps its arguments. -/
theorem frame_kernel_ideal : Cert.frame_KernelIdeal := fun m g _ => Cert.KernelIdeal.Gen.frame m g

/-- The reference runs and keeps its arguments: its run, with what it says of the result dropped. -/
theorem frame_reference_ideal : Cert.frame_ReferenceIdeal := fun m g _ =>
  (θ_run Cert.ReferenceIdeal.defs _ _).mono (fun _ h c => (h c).2) (Cert.ReferenceIdeal.Value.run (F := Ideal) m g)

/-- No operation of the kernel program was rewritten for the exact reading. -/
theorem preserves : Cert.preserves_Kernel_KernelIdeal := trivial

/-- At exact arithmetic, from arguments that agree, the two programs end with equal results: the kernel program's is
    the host stages of the product of the features with the weights; the reference's composed term is that same
    function of the reference's arguments, which are the kernel program's. -/
theorem algebraic : Cert.algebraic_KernelIdeal_ReferenceIdeal := by
  intro m g m' g' _ hagree
  refine ⟨_, Cert.KernelIdeal.KerRun.run m g, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v38_eq, Cert.Bridge.out_eq,
    (hagree c).1, (hagree c).2.1, (hagree c).2.2.1, (hagree c).2.2.2.1, (hagree c).2.2.2.2.1, (hagree c).2.2.2.2.2]

end Cert.Proof.Claims

end
-- ==== Proof.lean ====
/-
  One graph aggregation, computed two ways, is one function of its arguments at exact arithmetic.

  The arguments: the features X of 100000 nodes (128 each), a weight w for each of 1600000 edges, a weight matrix W
  (128 × 32), a bias b (32 entries), and the edges' two endpoint arrays src and dst. Every node also carries a loop
  of weight one onto itself. With
      dout n = 1 + the number of edges e with src e = n,        din n = 1 + the number of edges e with dst e = n,
      h (n, f) = dout n ^ (-1/2) · Σ over k < 128 of X (n, k) · W (k, f),
  the result at node n and output feature f is
      out (n, f) = din n ^ (-1/2) · ( Σ over the edges e with dst e = n of w e · h (src e, f)  +  h (n, f) ) + b f ;
  in matrix words  out = D_in ^ (-1/2) · (A_w + I) · D_out ^ (-1/2) · (X · W) + b,  A_w the weighted adjacency matrix.

  The kernel computes it as written: the product X · W in one region, tiled in five blocks of 20000 rows, and around
  it the two degree counts over the 1600000 edges plus one, the row scale, the gather along the edges, the sum of
  the messages at their end nodes plus each node's own row, the second row scale and the bias.
  The reference differs in three places. It appends the 100000 loops to the edge list — 100000 further edges n → n of
  weight one — and counts, gathers and sums over all 1700000 positions; it clips every degree below at one before
  the reciprocal square root; and it scales the rows of X by dout ^ (-1/2) before the product with W, not after.

  On the extended reals the three differences change nothing.
    * A sum over the edges and the appended loops of the terms whose end node is n is the sum over the edges plus
      n's own term: the loop at position 1600000 + j carries the integer j, which is read as node j by the count, by
      the gather and by the scatter alike. For a degree the own term is one; for the aggregate it is n's own row.
    * A degree is a count plus one, a real number at least one: the clip returns it unchanged.
    * Its reciprocal square root is therefore a nonnegative real s, and such a factor passes through the finite sum
      of products: Σ over k of (X (n, k) · s) · W (k, f) = (Σ over k of X (n, k) · W (k, f)) · s.
  The last two steps are the same operations on both sides.

  The five claims are proved in the module Claims; here they are assembled behind the witnesses of the facts the
  three programs and the precondition state.
-/
import proofs.«135186_j21182778704610_2_alg».proof.Defs
import proofs.«135186_j21182778704610_2_alg».proof.Proof.Gen.Kernel
import proofs.«135186_j21182778704610_2_alg».proof.Proof.Gen.Kernel.Skeleton
import proofs.«135186_j21182778704610_2_alg».proof.Proof.Gen.Kernel.Launch
import proofs.«135186_j21182778704610_2_alg».proof.Proof.Gen.Kernel.Points
import proofs.«135186_j21182778704610_2_alg».proof.Proof.Gen.Kernel.Frame
import proofs.«135186_j21182778704610_2_alg».proof.Proof.Gen.KernelIdeal
import proofs.«135186_j21182778704610_2_alg».proof.Proof.Gen.KernelIdeal.Skeleton
import proofs.«135186_j21182778704610_2_alg».proof.Proof.Gen.KernelIdeal.Launch
import proofs.«135186_j21182778704610_2_alg».proof.Proof.Gen.KernelIdeal.Points
import proofs.«135186_j21182778704610_2_alg».proof.Proof.Gen.KernelIdeal.Frame
import proofs.«135186_j21182778704610_2_alg».proof.Proof.Gen.ReferenceIdeal
import proofs.«135186_j21182778704610_2_alg».proof.Proof.Gen.Pre_finite_inputs
import proofs.«135186_j21182778704610_2_alg».proof.Proof.Gen.ReferenceIdeal.Run
import proofs.«135186_j21182778704610_2_alg».proof.Proof.Gen.ReferenceIdeal.Read
import proofs.«135186_j21182778704610_2_alg».proof.Proof.Claims
import Idealize.ShloMosaic.Adequacy
import Idealize.ShloMosaic.Init

noncomputable section

namespace Cert.Proof

open Idealize.ShloMosaic Idealize.SL.Sem

/-- The certificate's claim: the stated facts hold, each program runs and keeps its arguments, the exact reading of
    the kernel is its own text, and at exact arithmetic the kernel and the reference end with equal results. -/
theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference_ideal, Claims.preserves, Claims.algebraic⟩

end Cert.Proof

end
